-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S50000x128 .f32) (main_arg1 : IVec S800000 32) (main_arg2 : IVec S800000 32) (main_arg3 : FVec F S800000 .f32) (main_arg4 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S50000x128 : Shape := ⟨2, ![50000, 128]⟩
abbrev S800000 : Shape := ⟨1, ![800000]⟩
abbrev S128x128 : Shape := ⟨2, ![128, 128]⟩
abbrev S2000x128 : Shape := ⟨2, ![2000, 128]⟩
abbrev S_ : Shape := ⟨0, ![]⟩
abbrev S800000x1 : Shape := ⟨2, ![800000, 1]⟩
abbrev S800000x128 : Shape := ⟨2, ![800000, 128]⟩

abbrev nBuf : Space → Nat
  | .hbm => 48
  | .vmem => 15
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S128x128, .f32⟩
  | .hbm, ⟨5, _⟩ => ⟨S50000x128, .f32⟩
  | .hbm, ⟨6, _⟩ => ⟨S_, .f32⟩
  | .hbm, ⟨7, _⟩ => ⟨S800000, .f32⟩
  | .hbm, ⟨8, _⟩ => ⟨S800000, .f32⟩
  | .hbm, ⟨9, _⟩ => ⟨S800000x1, .f32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x128, .f32⟩
  | .hbm, ⟨19, _⟩ => ⟨S800000x128, .f32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S50000x128, .f32⟩
  | .hbm, ⟨26, _⟩ => ⟨S50000x128, .f32⟩
  | .hbm, ⟨27, _⟩ => ⟨S_, .f32⟩
  | .hbm, ⟨28, _⟩ => ⟨S800000, .f32⟩
  | .hbm, ⟨29, _⟩ => ⟨S800000, .f32⟩
  | .hbm, ⟨30, _⟩ => ⟨S800000x1, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x128, .f32⟩
  | .hbm, ⟨40, _⟩ => ⟨S800000x128, .f32⟩
  | .hbm, ⟨41, _⟩ => ⟨S800000x128, .f32⟩
  | .hbm, ⟨42, _⟩ => ⟨S_, .f32⟩
  | .hbm, ⟨43, _⟩ => ⟨S50000x128, .f32⟩
  | .hbm, ⟨44, _⟩ => ⟨S800000x1, .i32⟩
  | .hbm, ⟨45, _⟩ => ⟨S50000x128, .f32⟩
  | .hbm, ⟨46, _⟩ => ⟨S50000x128, .f32⟩
  | .hbm, ⟨47, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S128x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x128, .f32⟩
  | .local _ .vmem, ⟨13, _⟩ => ⟨S2000x128, .f32⟩
  | .local _ .vmem, ⟨14, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_v21 : Ref sig .tc := ⟨.hbm, 32, rfl⟩
abbrev main_v22 : Ref sig .tc := ⟨.hbm, 33, rfl⟩
abbrev main_c_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S2000x128_S2000x128 : S2000x128.ShapeCasts S2000x128
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v16) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v17) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v33) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v34) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S_ : Shape := ⟨0, ![]⟩
abbrev S800000x1 : Shape := ⟨2, ![800000, 1]⟩
abbrev S800000x128 : Shape := ⟨2, ![800000, 128]⟩

abbrev nBuf : Space → Nat
  | .hbm => 49
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S128x128, .f32⟩
  | .hbm, ⟨5, _⟩ => ⟨S50000x128, .f32⟩
  | .hbm, ⟨6, _⟩ => ⟨S50000x128, .f32⟩
  | .hbm, ⟨7, _⟩ => ⟨S_, .f32⟩
  | .hbm, ⟨8, _⟩ => ⟨S800000, .f32⟩
  | .hbm, ⟨9, _⟩ => ⟨S800000, .f32⟩
  | .hbm, ⟨10, _⟩ => ⟨S800000x1, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S800000x128, .f32⟩
  | .hbm, ⟨21, _⟩ => ⟨S800000x128, .f32⟩
  | .hbm, ⟨22, _⟩ => ⟨S_, .f32⟩
  | .hbm, ⟨23, _⟩ => ⟨S50000x128, .f32⟩
  | .hbm, ⟨24, _⟩ => ⟨S800000x1, .i32⟩
  | .hbm, ⟨25, _⟩ => ⟨S50000x128, .f32⟩
  | .hbm, ⟨26, _⟩ => ⟨S50000x128, .f32⟩
  | .hbm, ⟨27, _⟩ => ⟨S50000x128, .f32⟩
  | .hbm, ⟨28, _⟩ => ⟨S_, .f32⟩
  | .hbm, ⟨29, _⟩ => ⟨S800000, .f32⟩
  | .hbm, ⟨30, _⟩ => ⟨S800000, .f32⟩
  | .hbm, ⟨31, _⟩ => ⟨S800000x1, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x128, .f32⟩
  | .hbm, ⟨41, _⟩ => ⟨S800000x128, .f32⟩
  | .hbm, ⟨42, _⟩ => ⟨S800000x128, .f32⟩
  | .hbm, ⟨43, _⟩ => ⟨S_, .f32⟩
  | .hbm, ⟨44, _⟩ => ⟨S50000x128, .f32⟩
  | .hbm, ⟨45, _⟩ => ⟨S800000x1, .i32⟩
  | .hbm, ⟨46, _⟩ => ⟨S50000x128, .f32⟩
  | .hbm, ⟨47, _⟩ => ⟨S50000x128, .f32⟩
  | .hbm, ⟨48, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_3 : Ref sig .tc := ⟨.hbm, 32, rfl⟩
abbrev main_v22 : Ref sig .tc := ⟨.hbm, 33, rfl⟩
abbrev main_v23 : Ref sig .tc := ⟨.hbm, 34, rfl⟩
abbrev main_c_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.NamedRun.lean ====
/-
  The idealized kernel program's run, with its result array named.

  The program is five segments: a kernel region, a stretch of host operations, a second region, a second stretch, a
  third region. The buffer contents at each boundary between segments are a fold from the launch memory: a stretch
  leaves each buffer at its operations' results, a region leaves its arrays at what its write-backs make of them and
  every other buffer as it found it. Every weakly fair execution runs the segments in order and terminates, and the
  final memory holds, at every buffer that outlives a region, the last boundary's contents `W5`: in particular at
  the result array, and at the five argument arrays, where those contents are the launch contents.
-/
import proofs.«155404_j83288005804107_1_alg».proof.Proof.Gen.KernelIdeal.Frame

noncomputable section

namespace Cert.Cheb.NamedRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the last
    boundary's contents, and the five argument arrays as launched. -/
theorem run : θ_run defs (onTc (τ := τ) (main (F := F))) ⟨m, fun _ => 0, ρ⟩ (fun r => ∀ c : Dev nD,
      r.2.mem ((c.tc : Thread nD τ).loc main_v34) = W5 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v34 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.Cheb.NamedRun

end
-- ==== Proof.LibPlainMatmul.lean ====
/-
  A plain matrix product into a zero accumulator, read at an entry, at the exact (extended-real) values.

  For an m×k matrix A and a k×n matrix B the product's (a, b) entry is the sum over the contracted coordinate c of
  A(a, c) · B(c, b): the contraction's index set has one axis, of extent k, and is re-indexed by its one coordinate.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the plain product of an m×k by a k×n matrix, accumulated into the zero matrix, is
    `∑ c, A (a, c) * B (c, b)` on the extended reals. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  show FloatOps.matmul (DotDims.plain m k n) prec A B (constant ⟨2, ![m, n]⟩ .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

end Idealize.ShloMosaic.ValueIdx

end
-- ==== Proof.LibPlainDot.lean ====
/-
  A plain matrix product computed as a host dot_general, read at an entry, at the exact (extended-real) values.

  For an m×k matrix A and a k×n matrix B the product's (a, b) entry is the sum over the contracted coordinate c of
  A(a, c) · B(c, b), whatever the schedule key: the contraction's index set has one axis, of extent k, and is
  re-indexed by its one coordinate. The twin, for the host's product, of the same reading of a matmul into a zero
  accumulator.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the host's plain product of an m×k by a k×n matrix is `∑ c, A (a, c) * B (c, b)` on the
    extended reals. -/
theorem dotGeneral_plain_apply {m k n : Nat} {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b) = ∑ c : Fin k, A (ix2 a c) * B (ix2 c b) := by
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

/-- The same for the schedule key of one device's data, as a host program applies it. -/
theorem hostDotGeneral_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    Host.dotGeneral (DotDims.plain m k n) prec A B (ix2 a b) = ∑ c : Fin k, A (ix2 a c) * B (ix2 c b) :=
  dotGeneral_plain_apply prec .single A B a b

end Idealize.ShloMosaic.ValueIdx

end
-- ==== Proof.Product.lean ====
/-
  The matrix product every stage of this kernel computes, and the kernel bodies' stored value read at an entry.

  `rowsTimes X W` is the 50000×128 by 128×128 product as the host computes it: at the exact values its (p, q) entry
  is ∑ₖ X(p, k) · W(k, q). Each of the three kernel bodies stores, for its 2000-row block x0 and the weight
  block x1, the product of the two blocks into a zero accumulator (the change of format to bf16 on the way in is the
  identity at the exact values, and so is the body's cast of the block to its own shape): at (r, q) that is
  ∑ₖ x0(r, k) · x1(k, q).
-/
import proofs.«155404_j83288005804107_1_alg».proof.Proof.Gen.KernelIdeal.Skeleton
import proofs.«155404_j83288005804107_1_alg».proof.Proof.LibPlainMatmul
import proofs.«155404_j83288005804107_1_alg».proof.Proof.LibPlainDot
import Idealize.ShloMosaic.Lib.Pipeline.Value

noncomputable section

open scoped BigOperators

namespace Cert.Cheb

open Idealize.ShloMosaic Idealize.ShloMosaic.ValueIdx

/-- The 50000×128 by 128×128 matrix product, as the host's dot_general. -/
def rowsTimes (X : FVec Ideal ⟨2, ![50000, 128]⟩ .f32) (W : FVec Ideal ⟨2, ![128, 128]⟩ .f32) :
    FVec Ideal ⟨2, ![50000, 128]⟩ .f32 :=
  Host.dotGeneral (F := Ideal) (DotDims.plain 50000 128 128) none X W

/-- Its (p, q) entry is ∑ₖ X(p, k) · W(k, q). -/
theorem rowsTimes_apply (X : FVec Ideal ⟨2, ![50000, 128]⟩ .f32) (W : FVec Ideal ⟨2, ![128, 128]⟩ .f32)
    (p : Fin 50000) (q : Fin 128) :
    rowsTimes X W (ix2 p q) = ∑ k : Fin 128, X (ix2 p k) * W (ix2 k q) :=
  hostDotGeneral_plain_apply none X W p q

open Cert.KernelIdeal Cert.KernelIdeal.Gen

/-- The first body's stored value at (r, q): the row r of its block times the column q of the weight block. -/
theorem pay0_apply (x0 : Vec Ideal S2000x128 .f32) (x1 : Vec Ideal S128x128 .f32) (r : Fin 2000) (q : Fin 128) :
    k0_pay1 (F := Ideal) x0 x1 (ix2 r q) = ∑ k : Fin 128, x0 (ix2 r k) * x1 (ix2 k q) := by
  unfold k0_pay1
  exact matmul_plain_zero_apply none _ _ r q

/-- The second body's: the same (its cast of the block to its own shape changes nothing). -/
theorem pay1_apply (x0 : Vec Ideal S2000x128 .f32) (x1 : Vec Ideal S128x128 .f32) (r : Fin 2000) (q : Fin 128) :
    k1_pay1 (F := Ideal) x0 x1 (ix2 r q) = ∑ k : Fin 128, x0 (ix2 r k) * x1 (ix2 k q) := by
  unfold k1_pay1
  rw [shapeCast_self]
  exact matmul_plain_zero_apply none _ _ r q

/-- The third body's: the same. -/
theorem pay2_apply (x0 : Vec Ideal S2000x128 .f32) (x1 : Vec Ideal S128x128 .f32) (r : Fin 2000) (q : Fin 128) :
    k2_pay1 (F := Ideal) x0 x1 (ix2 r q) = ∑ k : Fin 128, x0 (ix2 r k) * x1 (ix2 k q) := by
  unfold k2_pay1
  rw [shapeCast_self]
  exact matmul_plain_zero_apply none _ _ r q

end Cert.Cheb

end
-- ==== Proof.Region0.lean ====
/-
  Region 0 of the program: its output array after the region, as one function of the arrays the region finds.

  The region's grid has 25 points. Point t reads rows 2000·t … 2000·t + 1999 of its input array (all 128 columns) and
  the whole 128×128 weight array, and writes back rows 2000·t … 2000·t + 1999 of its output. What it writes at row r
  and column q of the block is ∑ₖ (input block)(r, k) · (weight)(k, q), which is the (2000·t + r, q) entry of the
  product of the whole input array by the weight array. The 25 row blocks tile the 50000 rows, so after the region the
  output array is that product.
-/
import proofs.«155404_j83288005804107_1_alg».proof.Proof.Gen.KernelIdeal.Frame
import proofs.«155404_j83288005804107_1_alg».proof.Proof.Product
import Idealize.ShloMosaic.Lib.Pipeline.Value

noncomputable section

open scoped BigOperators

namespace Cert.Cheb.Region0

open Idealize.ShloMosaic Idealize.ShloMosaic.TcCoe Idealize.SL.Sem Idealize.ShloMosaic.ValueIdx
open Idealize.ShloMosaic.Pipeline (Dat)
open Cert.KernelIdeal Cert.KernelIdeal.Gen Cert.Cheb

variable (V : (c : Dev nD) → (b : Ref sig .tc) → Buf (Elt Ideal) ((c : Thread nD τ).loc b))

theorem zero_offsets : (![0, 0] : Fin 2 → Nat) = fun _ => 0 := funext fun a => by fin_cases a <;> rfl

/-- The windows' index maps over the grid: the input and the output move down one row block per point, the weight
    block stays. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem point_lt (t : Fin cfg0.N) : t.val < 25 := lt_of_lt_of_eq t.isLt N_0

/-- The input block at point t, at (r, k), is the input array at row 2000·t + r. -/
theorem input_block (c : Dev nD) (t : Fin cfg0.N) (r : Fin 2000) (k : Fin 128) (p : Fin 50000)
    (hp : p.val = t.val * 2000 + r.val) :
    (iblk0 V c 0 t : Vec Ideal S2000x128 .f32) (ix2 r k) = (V c main_arg0 : S50000x128.Idx → EReal) (ix2 p k) := by
  obtain ⟨e0, e1, -, -, -, -⟩ := index_maps t
  unfold iblk0
  rw [View.read_apply]
  show V c main_arg0 _ = V c main_arg0 _
  congr 1
  funext a
  apply Fin.ext
  match a with
  | ⟨0, _⟩ => show win0_0.index t (0 : Fin 2) * 2000 + 1 * r.val = p.val; rw [e0, hp]; omega
  | ⟨1, _⟩ => show win0_0.index t (1 : Fin 2) * 128 + 1 * k.val = k.val; rw [e1]; omega

/-- The weight block at any point is the weight array. -/
theorem weight_block (c : Dev nD) (t : Fin cfg0.N) (k q : Fin 128) :
    (iblk0 V c 1 t : Vec Ideal S128x128 .f32) (ix2 k q) = (V c main_arg4 : S128x128.Idx → EReal) (ix2 k q) := by
  obtain ⟨-, -, e2, e3, -, -⟩ := index_maps t
  unfold iblk0
  rw [View.read_apply]
  show V c main_arg4 _ = V c main_arg4 _
  congr 1
  funext a
  apply Fin.ext
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-- What point t writes back is block t of the product of the input array by the weight array. -/
theorem flushed_eq (c : Dev nD) (t : Fin cfg0.N) :
    (dat0 V c).flushed 2 t
      = ((cfg0.win 2).blk t).view.read (Elt Ideal) (rowsTimes (V c main_arg0) (V c main_arg4)) := by
  show (cfg0.win 2).cut (grid0.coords t) ((dat0 V c).after 2 t) = _
  rw [after0_2]
  unfold out0_2
  rw [View.canon_unit_zero zero_offsets]
  simp only [View.ld_unit_zero (S := S2000x128) zero_offsets, View.ld_unit_zero (S := S128x128) zero_offsets]
  obtain ⟨-, -, -, -, e4, e5⟩ := index_maps t
  have ht := point_lt t
  funext j
  obtain ⟨r, q, rfl⟩ : ∃ (r : Fin 2000) (q : Fin 128), j = ix2 r q := ⟨j 0, j 1, eq_ix2 j⟩
  refine (pay0_apply _ _ r q).trans ?_
  rw [View.read_apply]
  have hemb : ((cfg0.win 2).blk t).view.emb (ix2 r q)
      = (ix2 (⟨t.val * 2000 + r.val, by have := r.isLt; omega⟩ : Fin 50000) q : S50000x128.Idx) := by
    funext a
    apply Fin.ext
    match a with
    | ⟨0, _⟩ => show win0_2.index t (0 : Fin 2) * 2000 + 1 * r.val = t.val * 2000 + r.val; rw [e4]; omega
    | ⟨1, _⟩ => show win0_2.index t (1 : Fin 2) * 128 + 1 * q.val = q.val; rw [e5]; omega
  show _ = rowsTimes (V c main_arg0) (V c main_arg4) (((cfg0.win 2).blk t).view.emb (ix2 r q))
  rw [hemb, rowsTimes_apply]
  refine Finset.sum_congr rfl fun k _ => ?_
  rw [input_block V c t r k ⟨t.val * 2000 + r.val, by have := r.isLt; omega⟩ rfl, weight_block V c t k q]

/-- An index of the output array is in point t's block iff each coordinate is in the block's range on its axis. -/
theorem mem_block (t : Fin cfg0.N) (i : S50000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v0).slice (win0_2.rect t)).set ↔ _
  rw [View.set_slice_whole, Rect.mem_set_unit]
  exact Iff.rfl

/-- Every index of the output array is in the block of the point its row falls in. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  let t : Fin cfg0.N := ⟨(i 0).val / 2000, by rw [show cfg0.N = 25 from N_0]; omega⟩
  obtain ⟨-, -, -, -, e4, e5⟩ := index_maps t
  have htv : t.val = (i 0).val / 2000 := rfl
  refine ⟨t, flush0_2 t, ?_⟩
  rw [mem_block]
  intro a
  match a with
  | ⟨0, _⟩ =>
    show win0_2.index t (0 : Fin 2) * 2000 ≤ (i 0).val ∧ (i 0).val < win0_2.index t (0 : Fin 2) * 2000 + 2000
    rw [e4, htv]; omega
  | ⟨1, _⟩ =>
    show win0_2.index t (1 : Fin 2) * 128 ≤ (i 1).val ∧ (i 1).val < win0_2.index t (1 : Fin 2) * 128 + 128
    rw [e5]; omega

/-- The output array after the region is the product of the input array by the weight array. -/
theorem output (c : Dev nD) :
    (dat0 V c).arrAt 2 cfg0.N = rowsTimes (V c main_arg0) (V c main_arg4) :=
  (dat0 V c).arrAt_eq_of_cover 2 (rowsTimes (V c main_arg0) (V c main_arg4)) (fun t _ => flushed_eq V c t) covered

end Cert.Cheb.Region0

end
-- ==== Proof.Region1.lean ====
/-
  Region 1 of the program: its output array after the region, as one function of the arrays the region finds.

  The region's grid has 25 points. Point t reads rows 2000·t … 2000·t + 1999 of its input array (all 128 columns) and
  the whole 128×128 weight array, and writes back rows 2000·t … 2000·t + 1999 of its output. What it writes at row r
  and column q of the block is ∑ₖ (input block)(r, k) · (weight)(k, q), which is the (2000·t + r, q) entry of the
  product of the whole input array by the weight array. The 25 row blocks tile the 50000 rows, so after the region the
  output array is that product.
-/
import proofs.«155404_j83288005804107_1_alg».proof.Proof.Gen.KernelIdeal.Frame
import proofs.«155404_j83288005804107_1_alg».proof.Proof.Product
import Idealize.ShloMosaic.Lib.Pipeline.Value

noncomputable section

open scoped BigOperators

namespace Cert.Cheb.Region1

open Idealize.ShloMosaic Idealize.ShloMosaic.TcCoe Idealize.SL.Sem Idealize.ShloMosaic.ValueIdx
open Idealize.ShloMosaic.Pipeline (Dat)
open Cert.KernelIdeal Cert.KernelIdeal.Gen Cert.Cheb

variable (V : (c : Dev nD) → (b : Ref sig .tc) → Buf (Elt Ideal) ((c : Thread nD τ).loc b))

theorem zero_offsets : (![0, 0] : Fin 2 → Nat) = fun _ => 0 := funext fun a => by fin_cases a <;> rfl

/-- The windows' index maps over the grid: the input and the output move down one row block per point, the weight
    block stays. -/
theorem index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem point_lt (t : Fin cfg1.N) : t.val < 25 := lt_of_lt_of_eq t.isLt N_1

/-- The input block at point t, at (r, k), is the input array at row 2000·t + r. -/
theorem input_block (c : Dev nD) (t : Fin cfg1.N) (r : Fin 2000) (k : Fin 128) (p : Fin 50000)
    (hp : p.val = t.val * 2000 + r.val) :
    (iblk1 V c 0 t : Vec Ideal S2000x128 .f32) (ix2 r k) = (V c main_v16 : S50000x128.Idx → EReal) (ix2 p k) := by
  obtain ⟨e0, e1, -, -, -, -⟩ := index_maps t
  unfold iblk1
  rw [View.read_apply]
  show V c main_v16 _ = V c main_v16 _
  congr 1
  funext a
  apply Fin.ext
  match a with
  | ⟨0, _⟩ => show win1_0.index t (0 : Fin 2) * 2000 + 1 * r.val = p.val; rw [e0, hp]; omega
  | ⟨1, _⟩ => show win1_0.index t (1 : Fin 2) * 128 + 1 * k.val = k.val; rw [e1]; omega

/-- The weight block at any point is the weight array. -/
theorem weight_block (c : Dev nD) (t : Fin cfg1.N) (k q : Fin 128) :
    (iblk1 V c 1 t : Vec Ideal S128x128 .f32) (ix2 k q) = (V c main_arg4 : S128x128.Idx → EReal) (ix2 k q) := by
  obtain ⟨-, -, e2, e3, -, -⟩ := index_maps t
  unfold iblk1
  rw [View.read_apply]
  show V c main_arg4 _ = V c main_arg4 _
  congr 1
  funext a
  apply Fin.ext
  match a with
  | ⟨0, _⟩ => show win1_1.index t (0 : Fin 2) * 128 + 1 * k.val = k.val; rw [e2]; omega
  | ⟨1, _⟩ => show win1_1.index t (1 : Fin 2) * 128 + 1 * q.val = q.val; rw [e3]; omega

/-- What point t writes back is block t of the product of the input array by the weight array. -/
theorem flushed_eq (c : Dev nD) (t : Fin cfg1.N) :
    (dat1 V c).flushed 2 t
      = ((cfg1.win 2).blk t).view.read (Elt Ideal) (rowsTimes (V c main_v16) (V c main_arg4)) := by
  show (cfg1.win 2).cut (grid1.coords t) ((dat1 V c).after 2 t) = _
  rw [after1_2]
  unfold out1_2
  rw [View.canon_unit_zero zero_offsets]
  simp only [View.ld_unit_zero (S := S2000x128) zero_offsets, View.ld_unit_zero (S := S128x128) zero_offsets]
  obtain ⟨-, -, -, -, e4, e5⟩ := index_maps t
  have ht := point_lt t
  funext j
  obtain ⟨r, q, rfl⟩ : ∃ (r : Fin 2000) (q : Fin 128), j = ix2 r q := ⟨j 0, j 1, eq_ix2 j⟩
  refine (pay1_apply _ _ r q).trans ?_
  rw [View.read_apply]
  have hemb : ((cfg1.win 2).blk t).view.emb (ix2 r q)
      = (ix2 (⟨t.val * 2000 + r.val, by have := r.isLt; omega⟩ : Fin 50000) q : S50000x128.Idx) := by
    funext a
    apply Fin.ext
    match a with
    | ⟨0, _⟩ => show win1_2.index t (0 : Fin 2) * 2000 + 1 * r.val = t.val * 2000 + r.val; rw [e4]; omega
    | ⟨1, _⟩ => show win1_2.index t (1 : Fin 2) * 128 + 1 * q.val = q.val; rw [e5]; omega
  show _ = rowsTimes (V c main_v16) (V c main_arg4) (((cfg1.win 2).blk t).view.emb (ix2 r q))
  rw [hemb, rowsTimes_apply]
  refine Finset.sum_congr rfl fun k _ => ?_
  rw [input_block V c t r k ⟨t.val * 2000 + r.val, by have := r.isLt; omega⟩ rfl, weight_block V c t k q]

/-- An index of the output array is in point t's block iff each coordinate is in the block's range on its axis. -/
theorem mem_block (t : Fin cfg1.N) (i : S50000x128.Idx) :
    i ∈ ((cfg1.win 2).blk t).view.set ↔ ∀ a : Fin 2, win1_2.index t a * S2000x128.size a ≤ (i a).val
      ∧ (i a).val < win1_2.index t a * S2000x128.size a + S2000x128.size a := by
  show i ∈ ((View.whole main_v17).slice (win1_2.rect t)).set ↔ _
  rw [View.set_slice_whole, Rect.mem_set_unit]
  exact Iff.rfl

/-- Every index of the output array is in the block of the point its row falls in. -/
theorem covered (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  let t : Fin cfg1.N := ⟨(i 0).val / 2000, by rw [show cfg1.N = 25 from N_1]; omega⟩
  obtain ⟨-, -, -, -, e4, e5⟩ := index_maps t
  have htv : t.val = (i 0).val / 2000 := rfl
  refine ⟨t, flush1_2 t, ?_⟩
  rw [mem_block]
  intro a
  match a with
  | ⟨0, _⟩ =>
    show win1_2.index t (0 : Fin 2) * 2000 ≤ (i 0).val ∧ (i 0).val < win1_2.index t (0 : Fin 2) * 2000 + 2000
    rw [e4, htv]; omega
  | ⟨1, _⟩ =>
    show win1_2.index t (1 : Fin 2) * 128 ≤ (i 1).val ∧ (i 1).val < win1_2.index t (1 : Fin 2) * 128 + 128
    rw [e5]; omega

/-- The output array after the region is the product of the input array by the weight array. -/
theorem output (c : Dev nD) :
    (dat1 V c).arrAt 2 cfg1.N = rowsTimes (V c main_v16) (V c main_arg4) :=
  (dat1 V c).arrAt_eq_of_cover 2 (rowsTimes (V c main_v16) (V c main_arg4)) (fun t _ => flushed_eq V c t) covered

end Cert.Cheb.Region1

end
-- ==== Proof.Region2.lean ====
/-
  Region 2 of the program: its output array after the region, as one function of the arrays the region finds.

  The region's grid has 25 points. Point t reads rows 2000·t … 2000·t + 1999 of its input array (all 128 columns) and
  the whole 128×128 weight array, and writes back rows 2000·t … 2000·t + 1999 of its output. What it writes at row r
  and column q of the block is ∑ₖ (input block)(r, k) · (weight)(k, q), which is the (2000·t + r, q) entry of the
  product of the whole input array by the weight array. The 25 row blocks tile the 50000 rows, so after the region the
  output array is that product.
-/
import proofs.«155404_j83288005804107_1_alg».proof.Proof.Gen.KernelIdeal.Frame
import proofs.«155404_j83288005804107_1_alg».proof.Proof.Product
import Idealize.ShloMosaic.Lib.Pipeline.Value

noncomputable section

open scoped BigOperators

namespace Cert.Cheb.Region2

open Idealize.ShloMosaic Idealize.ShloMosaic.TcCoe Idealize.SL.Sem Idealize.ShloMosaic.ValueIdx
open Idealize.ShloMosaic.Pipeline (Dat)
open Cert.KernelIdeal Cert.KernelIdeal.Gen Cert.Cheb

variable (V : (c : Dev nD) → (b : Ref sig .tc) → Buf (Elt Ideal) ((c : Thread nD τ).loc b))

theorem zero_offsets : (![0, 0] : Fin 2 → Nat) = fun _ => 0 := funext fun a => by fin_cases a <;> rfl

/-- The windows' index maps over the grid: the input and the output move down one row block per point, the weight
    block stays. -/
theorem index_maps : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem point_lt (t : Fin cfg2.N) : t.val < 25 := lt_of_lt_of_eq t.isLt N_2

/-- The input block at point t, at (r, k), is the input array at row 2000·t + r. -/
theorem input_block (c : Dev nD) (t : Fin cfg2.N) (r : Fin 2000) (k : Fin 128) (p : Fin 50000)
    (hp : p.val = t.val * 2000 + r.val) :
    (iblk2 V c 0 t : Vec Ideal S2000x128 .f32) (ix2 r k) = (V c main_v33 : S50000x128.Idx → EReal) (ix2 p k) := by
  obtain ⟨e0, e1, -, -, -, -⟩ := index_maps t
  unfold iblk2
  rw [View.read_apply]
  show V c main_v33 _ = V c main_v33 _
  congr 1
  funext a
  apply Fin.ext
  match a with
  | ⟨0, _⟩ => show win2_0.index t (0 : Fin 2) * 2000 + 1 * r.val = p.val; rw [e0, hp]; omega
  | ⟨1, _⟩ => show win2_0.index t (1 : Fin 2) * 128 + 1 * k.val = k.val; rw [e1]; omega

/-- The weight block at any point is the weight array. -/
theorem weight_block (c : Dev nD) (t : Fin cfg2.N) (k q : Fin 128) :
    (iblk2 V c 1 t : Vec Ideal S128x128 .f32) (ix2 k q) = (V c main_arg4 : S128x128.Idx → EReal) (ix2 k q) := by
  obtain ⟨-, -, e2, e3, -, -⟩ := index_maps t
  unfold iblk2
  rw [View.read_apply]
  show V c main_arg4 _ = V c main_arg4 _
  congr 1
  funext a
  apply Fin.ext
  match a with
  | ⟨0, _⟩ => show win2_1.index t (0 : Fin 2) * 128 + 1 * k.val = k.val; rw [e2]; omega
  | ⟨1, _⟩ => show win2_1.index t (1 : Fin 2) * 128 + 1 * q.val = q.val; rw [e3]; omega

/-- What point t writes back is block t of the product of the input array by the weight array. -/
theorem flushed_eq (c : Dev nD) (t : Fin cfg2.N) :
    (dat2 V c).flushed 2 t
      = ((cfg2.win 2).blk t).view.read (Elt Ideal) (rowsTimes (V c main_v33) (V c main_arg4)) := by
  show (cfg2.win 2).cut (grid2.coords t) ((dat2 V c).after 2 t) = _
  rw [after2_2]
  unfold out2_2
  rw [View.canon_unit_zero zero_offsets]
  simp only [View.ld_unit_zero (S := S2000x128) zero_offsets, View.ld_unit_zero (S := S128x128) zero_offsets]
  obtain ⟨-, -, -, -, e4, e5⟩ := index_maps t
  have ht := point_lt t
  funext j
  obtain ⟨r, q, rfl⟩ : ∃ (r : Fin 2000) (q : Fin 128), j = ix2 r q := ⟨j 0, j 1, eq_ix2 j⟩
  refine (pay2_apply _ _ r q).trans ?_
  rw [View.read_apply]
  have hemb : ((cfg2.win 2).blk t).view.emb (ix2 r q)
      = (ix2 (⟨t.val * 2000 + r.val, by have := r.isLt; omega⟩ : Fin 50000) q : S50000x128.Idx) := by
    funext a
    apply Fin.ext
    match a with
    | ⟨0, _⟩ => show win2_2.index t (0 : Fin 2) * 2000 + 1 * r.val = t.val * 2000 + r.val; rw [e4]; omega
    | ⟨1, _⟩ => show win2_2.index t (1 : Fin 2) * 128 + 1 * q.val = q.val; rw [e5]; omega
  show _ = rowsTimes (V c main_v33) (V c main_arg4) (((cfg2.win 2).blk t).view.emb (ix2 r q))
  rw [hemb, rowsTimes_apply]
  refine Finset.sum_congr rfl fun k _ => ?_
  rw [input_block V c t r k ⟨t.val * 2000 + r.val, by have := r.isLt; omega⟩ rfl, weight_block V c t k q]

/-- An index of the output array is in point t's block iff each coordinate is in the block's range on its axis. -/
theorem mem_block (t : Fin cfg2.N) (i : S50000x128.Idx) :
    i ∈ ((cfg2.win 2).blk t).view.set ↔ ∀ a : Fin 2, win2_2.index t a * S2000x128.size a ≤ (i a).val
      ∧ (i a).val < win2_2.index t a * S2000x128.size a + S2000x128.size a := by
  show i ∈ ((View.whole main_v34).slice (win2_2.rect t)).set ↔ _
  rw [View.set_slice_whole, Rect.mem_set_unit]
  exact Iff.rfl

/-- Every index of the output array is in the block of the point its row falls in. -/
theorem covered (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  let t : Fin cfg2.N := ⟨(i 0).val / 2000, by rw [show cfg2.N = 25 from N_2]; omega⟩
  obtain ⟨-, -, -, -, e4, e5⟩ := index_maps t
  have htv : t.val = (i 0).val / 2000 := rfl
  refine ⟨t, flush2_2 t, ?_⟩
  rw [mem_block]
  intro a
  match a with
  | ⟨0, _⟩ =>
    show win2_2.index t (0 : Fin 2) * 2000 ≤ (i 0).val ∧ (i 0).val < win2_2.index t (0 : Fin 2) * 2000 + 2000
    rw [e4, htv]; omega
  | ⟨1, _⟩ =>
    show win2_2.index t (1 : Fin 2) * 128 ≤ (i 1).val ∧ (i 1).val < win2_2.index t (1 : Fin 2) * 128 + 128
    rw [e5]; omega

/-- The output array after the region is the product of the input array by the weight array. -/
theorem output (c : Dev nD) :
    (dat2 V c).arrAt 2 cfg2.N = rowsTimes (V c main_v33) (V c main_arg4) :=
  (dat2 V c).arrAt_eq_of_cover 2 (rowsTimes (V c main_v33) (V c main_arg4)) (fun t _ => flushed_eq V c t) covered

end Cert.Cheb.Region2

end
-- ==== Proof.EdgeStep.lean ====
/-
  The sparse step between two products, as one function of its five arrays.

  Given the edge list (row indices `rows`, column indices `cols`, weights `vals`, 800000 edges) and two 50000×128
  arrays x and y, the step gathers for each edge e the row of x at the edge's column index (a negative index counted
  from the end), scales it by 2 · vals(e), adds the scaled rows into a zero array at the edges' row indices, and
  subtracts y. Both programs apply exactly this chain of host operations; it is carried as one function and never
  opened: the two programs are compared by the arrays that go into it.
-/
import proofs.«155404_j83288005804107_1_alg».proof.ReferenceIdeal
import proofs.«155404_j83288005804107_1_alg».proof.Proof.Gen.ReferenceIdeal
import Idealize.ShloMosaic.PureOps.Ideal

noncomputable section

namespace Cert.Cheb

open Idealize.ShloMosaic Cert.ReferenceIdeal Cert.ReferenceIdeal.Facts₀ Cert.ReferenceIdeal.Facts

/-- scatter-add of the scaled gathered rows, minus `y`. -/
def edgeStep (rows cols : (⟨S800000, .i32⟩ : BufTy).Contents (Elt Ideal)) (vals : (⟨S800000, .f32⟩ : BufTy).Contents (Elt Ideal))
    (x y : (⟨S50000x128, .f32⟩ : BufTy).Contents (Elt Ideal)) : (⟨S50000x128, .f32⟩ : BufTy).Contents (Elt Ideal) :=
  subf (Host.scatterAdd scatter_S50000x128_S800000x1_S800000x128_1_0_0_1
      (broadcastInDim S50000x128 ![] bcast_S_S50000x128 (constant (F := Ideal) S_ .f32 0x00000000#32))
      (broadcastInDim S800000x1 ![0] bcast_S800000_S800000x1_0 rows)
      (mulf (broadcastInDim S800000x128 ![0, 1] bcast_S800000x1_S800000x128_0_1
          (broadcastInDim S800000x1 ![0] bcast_S800000_S800000x1_0
            (mulf (broadcastInDim S800000 ![] bcast_S_S800000 (constant (F := Ideal) S_ .f32 0x40000000#32)) vals)))
        (Host.gather gather_S50000x128_S800000x1_S800000x128_1_0_n_n_0_1_1128 x
          (broadcastInDim S800000x1 ![0] bcast_S800000_S800000x1_0
            (select (cmpi .slt cols (broadcastInDim S800000 ![] bcast_S_S800000 (constantI S_ 32 0#32)))
              (addi cols (broadcastInDim S800000 ![] bcast_S_S800000 (constantI S_ 32 50000#32))) cols)))))
    y

end Cert.Cheb

end
-- ==== Proof.Recurrence.lean ====
/-
  The whole computation as one function of the five argument arrays.

  With X the 50000×128 input, W the 128×128 weight and S the sparse step of the edge list (`edgeStep`):
      x₀ = X·W,   x₂ = (S(x₀) − x₀)·W,   x₃ = (S(x₂) − x₀)·W,
  where S(x) − y is `edgeStep rows cols vals x y`. The result is x₃.
-/
import proofs.«155404_j83288005804107_1_alg».proof.Proof.EdgeStep
import proofs.«155404_j83288005804107_1_alg».proof.Proof.Product

noncomputable section

namespace Cert.Cheb

open Idealize.ShloMosaic Cert.ReferenceIdeal

/-- x₃ of the recurrence above. -/
def third (X : (⟨S50000x128, .f32⟩ : BufTy).Contents (Elt Ideal)) (rows cols : (⟨S800000, .i32⟩ : BufTy).Contents (Elt Ideal))
    (vals : (⟨S800000, .f32⟩ : BufTy).Contents (Elt Ideal)) (W : (⟨S128x128, .f32⟩ : BufTy).Contents (Elt Ideal)) :
    (⟨S50000x128, .f32⟩ : BufTy).Contents (Elt Ideal) :=
  rowsTimes (edgeStep rows cols vals (rowsTimes (edgeStep rows cols vals (rowsTimes X W) (rowsTimes X W)) W) (rowsTimes X W)) W

end Cert.Cheb

end
-- ==== Proof.Stages.lean ====
/-
  The buffer contents at the boundaries of the idealized kernel program, followed from the launch to the result.

  After region 0 the first product array holds x₀ = X·W. The first stretch of host operations leaves, in the second
  region's input, the sparse step of x₀ minus x₀, and leaves the weight array and x₀ alone; region 1 multiplies by W:
  x₂. The second stretch leaves the sparse step of x₂ minus x₀ in the third region's input; region 2 multiplies by W:
  the result array ends at x₃ of the recurrence (`third`). A region changes none but its own output array, and a
  stretch none but its own results, so the arguments and x₀ are read at every boundary as they were.
-/
import proofs.«155404_j83288005804107_1_alg».proof.Proof.Gen.KernelIdeal.Frame
import proofs.«155404_j83288005804107_1_alg».proof.Proof.Region0
import proofs.«155404_j83288005804107_1_alg».proof.Proof.Region1
import proofs.«155404_j83288005804107_1_alg».proof.Proof.Region2
import proofs.«155404_j83288005804107_1_alg».proof.Proof.Recurrence
import Idealize.ShloMosaic.Lib.StableHlo.Run

noncomputable section

namespace Cert.Cheb.Stages

open Idealize.ShloMosaic Idealize.ShloMosaic.TcCoe Idealize.SL.Sem Idealize.ShloMosaic.StableHlo
open Idealize.ShloMosaic.Pipeline (Dat)
open Cert.KernelIdeal Cert.KernelIdeal.Gen Cert.Cheb

variable (m : (ℓ : Loc nD τ sig) → Buf (Elt Ideal) ℓ) (ρ : Dev nD → PrngReg)

/-! ## After region 0 -/

/-- The first product. -/
theorem W1_v0 (c : Dev nD) : W1 m ρ c (Proc.devRef .tc main_v0)
    = rowsTimes (m ((c.tc : Thread nD τ).loc main_arg0)) (m ((c.tc : Thread nD τ).loc main_arg4)) :=
  (W1_arr m ρ c 2).trans (Region0.output (V0 m ρ) c)

theorem W1_arg1 (c : Dev nD) : W1 m ρ c (Proc.devRef .tc main_arg1) = m ((c.tc : Thread nD τ).loc main_arg1) :=
  W1_of_ne m ρ c main_arg1 (by decide)
theorem W1_arg2 (c : Dev nD) : W1 m ρ c (Proc.devRef .tc main_arg2) = m ((c.tc : Thread nD τ).loc main_arg2) :=
  W1_of_ne m ρ c main_arg2 (by decide)
theorem W1_arg3 (c : Dev nD) : W1 m ρ c (Proc.devRef .tc main_arg3) = m ((c.tc : Thread nD τ).loc main_arg3) :=
  W1_of_ne m ρ c main_arg3 (by decide)
theorem W1_arg4 (c : Dev nD) : W1 m ρ c (Proc.devRef .tc main_arg4) = m ((c.tc : Thread nD τ).loc main_arg4) :=
  (W1_arr m ρ c 1).trans (((dat0 (V0 m ρ) c).arrAt_in 1 rfl _).trans (A_eq0 (V0 m ρ) c 1))

/-! ## After the first stretch -/

theorem W2_v16 (c : Dev nD) : W2 m ρ c (Proc.devRef .tc main_v16)
    = edgeStep (m ((c.tc : Thread nD τ).loc main_arg1)) (m ((c.tc : Thread nD τ).loc main_arg2)) (m ((c.tc : Thread nD τ).loc main_arg3))
        (W1 m ρ c (Proc.devRef .tc main_v0)) (W1 m ρ c (Proc.devRef .tc main_v0)) := by
  show StableHlo.after hostOps1 (W1 m ρ c) (Proc.devRef .tc main_v16) = _
  rw [← W1_arg1 m ρ c, ← W1_arg2 m ρ c, ← W1_arg3 m ρ c]
  generalize W1 m ρ c = Wc
  after_results_simp <;> rfl

/-- The first stretch writes neither the weight array nor the first product nor an argument. -/
theorem W2_arg4 (c : Dev nD) : W2 m ρ c (Proc.devRef .tc main_arg4) = W1 m ρ c (Proc.devRef .tc main_arg4) := by
  show StableHlo.after hostOps1 (W1 m ρ c) (Proc.devRef .tc main_arg4) = _
  generalize W1 m ρ c = Wc
  after_results_simp <;> rfl
theorem W2_v0 (c : Dev nD) : W2 m ρ c (Proc.devRef .tc main_v0) = W1 m ρ c (Proc.devRef .tc main_v0) := by
  show StableHlo.after hostOps1 (W1 m ρ c) (Proc.devRef .tc main_v0) = _
  generalize W1 m ρ c = Wc
  after_results_simp <;> rfl
theorem W2_arg1 (c : Dev nD) : W2 m ρ c (Proc.devRef .tc main_arg1) = W1 m ρ c (Proc.devRef .tc main_arg1) := by
  show StableHlo.after hostOps1 (W1 m ρ c) (Proc.devRef .tc main_arg1) = _
  generalize W1 m ρ c = Wc
  after_results_simp <;> rfl
theorem W2_arg2 (c : Dev nD) : W2 m ρ c (Proc.devRef .tc main_arg2) = W1 m ρ c (Proc.devRef .tc main_arg2) := by
  show StableHlo.after hostOps1 (W1 m ρ c) (Proc.devRef .tc main_arg2) = _
  generalize W1 m ρ c = Wc
  after_results_simp <;> rfl
theorem W2_arg3 (c : Dev nD) : W2 m ρ c (Proc.devRef .tc main_arg3) = W1 m ρ c (Proc.devRef .tc main_arg3) := by
  show StableHlo.after hostOps1 (W1 m ρ c) (Proc.devRef .tc main_arg3) = _
  generalize W1 m ρ c = Wc
  after_results_simp <;> rfl

/-! ## After region 1 -/

/-- The second product: the second region's input times the weight. -/
theorem W3_v17 (c : Dev nD) : W3 m ρ c (Proc.devRef .tc main_v17)
    = rowsTimes (W2 m ρ c (Proc.devRef .tc main_v16)) (W2 m ρ c (Proc.devRef .tc main_arg4)) :=
  (W3_arr m ρ c 2).trans (Region1.output (V2 m ρ) c)

theorem W3_v0 (c : Dev nD) : W3 m ρ c (Proc.devRef .tc main_v0) = W2 m ρ c (Proc.devRef .tc main_v0) :=
  W3_of_ne m ρ c main_v0 (by decide)
theorem W3_arg1 (c : Dev nD) : W3 m ρ c (Proc.devRef .tc main_arg1) = W2 m ρ c (Proc.devRef .tc main_arg1) :=
  W3_of_ne m ρ c main_arg1 (by decide)
theorem W3_arg2 (c : Dev nD) : W3 m ρ c (Proc.devRef .tc main_arg2) = W2 m ρ c (Proc.devRef .tc main_arg2) :=
  W3_of_ne m ρ c main_arg2 (by decide)
theorem W3_arg3 (c : Dev nD) : W3 m ρ c (Proc.devRef .tc main_arg3) = W2 m ρ c (Proc.devRef .tc main_arg3) :=
  W3_of_ne m ρ c main_arg3 (by decide)
theorem W3_arg4 (c : Dev nD) : W3 m ρ c (Proc.devRef .tc main_arg4) = W2 m ρ c (Proc.devRef .tc main_arg4) :=
  (W3_arr m ρ c 1).trans (((dat1 (V2 m ρ) c).arrAt_in 1 rfl _).trans (A_eq1 (V2 m ρ) c 1))

/-! ## After the second stretch -/

theorem W4_v33 (c : Dev nD) : W4 m ρ c (Proc.devRef .tc main_v33)
    = edgeStep (W3 m ρ c (Proc.devRef .tc main_arg1)) (W3 m ρ c (Proc.devRef .tc main_arg2)) (W3 m ρ c (Proc.devRef .tc main_arg3))
        (W3 m ρ c (Proc.devRef .tc main_v17)) (W3 m ρ c (Proc.devRef .tc main_v0)) := by
  show StableHlo.after hostOps2 (W3 m ρ c) (Proc.devRef .tc main_v33) = _
  generalize W3 m ρ c = Wc
  after_results_simp <;> rfl

theorem W4_arg4 (c : Dev nD) : W4 m ρ c (Proc.devRef .tc main_arg4) = W3 m ρ c (Proc.devRef .tc main_arg4) := by
  show StableHlo.after hostOps2 (W3 m ρ c) (Proc.devRef .tc main_arg4) = _
  generalize W3 m ρ c = Wc
  after_results_simp <;> rfl

/-! ## After region 2 -/

/-- The third product: the third region's input times the weight. -/
theorem W5_v34 (c : Dev nD) : W5 m ρ c (Proc.devRef .tc main_v34)
    = rowsTimes (W4 m ρ c (Proc.devRef .tc main_v33)) (W4 m ρ c (Proc.devRef .tc main_arg4)) :=
  (W5_arr m ρ c 2).trans (Region2.output (V4 m ρ) c)

/-! ## The result -/

/-- The result array's contents at the last boundary are x₃ of the recurrence over the launch contents. -/
theorem result (c : Dev nD) : W5 m ρ c (Proc.devRef .tc main_v34)
    = third (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  rw [W5_v34, W4_v33, W4_arg4, W3_arg4, W3_v17, W3_v0, W3_arg1, W3_arg2, W3_arg3, W2_v16, W2_arg4, W2_v0, W2_arg1, W2_arg2,
    W2_arg3, W1_v0, W1_arg1, W1_arg2, W1_arg3, W1_arg4]
  rfl

end Cert.Cheb.Stages

end
-- ==== Proof.lean ====
/-
  A Chebyshev graph convolution of order four: the Pallas program against its jnp reference, at the exact values.

  With X the 50000×128 input, W the 128×128 weight, and S the sparse step of the edge list (gather the rows of an array
  at the edges' column indices, scale each by twice the edge's weight, add them up at the edges' row indices), both
  programs compute
      x₀ = X·W,   x₂ = (S(x₀) − x₀)·W,   x₃ = (S(x₂) − x₀)·W
  and return x₃. The reference multiplies by W with the host's dot_general (it forms x₀ twice and uses the second copy as
  its x₁). The kernel program multiplies in three kernel regions, each over 25 row blocks of 2000 rows with the weight
  resident, each block product accumulated from zero after a change of format that is the identity at the exact values;
  the sparse step is the same chain of host operations in both programs. A 2000-row block of a product is the product
  of that block of rows, and the blocks tile the rows, so each region's output is the whole product; between the
  regions the two programs apply one function to equal arrays. No law of arithmetic beyond this is used, so the
  finiteness of the inputs is never needed.

  The frames of the two kernel programs are the generated ones; the reference's frame is its generated run with the
  result dropped; the idealization rewrote nothing, so it is preserved trivially.
-/
import proofs.«155404_j83288005804107_1_alg».proof.Defs
import proofs.«155404_j83288005804107_1_alg».proof.Proof.Gen.Kernel
import proofs.«155404_j83288005804107_1_alg».proof.Proof.Gen.Kernel.Frame
import proofs.«155404_j83288005804107_1_alg».proof.Proof.Gen.KernelIdeal
import proofs.«155404_j83288005804107_1_alg».proof.Proof.Gen.KernelIdeal.Frame
import proofs.«155404_j83288005804107_1_alg».proof.Proof.Gen.ReferenceIdeal
import proofs.«155404_j83288005804107_1_alg».proof.Proof.Gen.ReferenceIdeal.Run
import proofs.«155404_j83288005804107_1_alg».proof.Proof.Gen.Pre_finite_inputs
import proofs.«155404_j83288005804107_1_alg».proof.Proof.NamedRun
import proofs.«155404_j83288005804107_1_alg».proof.Proof.Stages
import proofs.«155404_j83288005804107_1_alg».proof.Proof.Recurrence
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with their result array at x₃ of the recurrence over the (agreeing) argument arrays: the kernel
    program's by following its buffers through the regions, the reference's because its composed term is that
    recurrence written out. -/
theorem algebraic : Cert.algebraic_KernelIdeal_ReferenceIdeal := by
  intro m ρ m' ρ' _ hagree
  refine ⟨fun c => Cert.Cheb.third (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono (fun _ h c => ⟨(h c).1.trans (Cert.Cheb.Stages.result m ρ c), (h c).2⟩)
      (Cert.Cheb.NamedRun.run (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
